-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S512x512 : Shape := ⟨2, ![512, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S1024x512 .f32) (main_arg1 : FVec F S512x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  main_v8
-- ==== Kernel.lean ====
abbrev S1024x512 : Shape := ⟨2, ![1024, 512]⟩
abbrev S512x512 : Shape := ⟨2, ![512, 512]⟩
abbrev S256x512 : Shape := ⟨2, ![256, 512]⟩
abbrev S128x512 : Shape := ⟨2, ![128, 512]⟩
abbrev S256x128 : Shape := ⟨2, ![256, 128]⟩
abbrev S8x512 : Shape := ⟨2, ![8, 512]⟩
abbrev S8x128 : Shape := ⟨2, ![8, 128]⟩
abbrev S256x1x128 : Shape := ⟨3, ![256, 1, 128]⟩
abbrev S1x8x128 : Shape := ⟨3, ![1, 8, 128]⟩
abbrev S256x8x128 : Shape := ⟨3, ![256, 8, 128]⟩
abbrev S256x8 : Shape := ⟨2, ![256, 8]⟩

abbrev nBuf : Space → Nat
  | .hbm => 3
  | .vmem => 6
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S128x512, .f32⟩
  | .local _ .vmem, ⟨3, _⟩ => ⟨S128x512, .f32⟩
  | .local _ .vmem, ⟨4, _⟩ => ⟨S256x128, .f32⟩
  | .local _ .vmem, ⟨5, _⟩ => ⟨S256x128, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x512_S8x512_0_0 : ∀ a, (![0, 0] : Fin 2 → Nat) a + S8x512.size a ≤ S128x512.size a
  h_S8x512 : 0 < S8x512.numel
  inb_S256x512_S256x128_0_0 : ∀ a, (![0, 0] : Fin 2 → Nat) a + S256x128.size a ≤ S256x512.size a
  h_S256x128 : 0 < S256x128.numel
  slices_S8x512_o0_0_S8x128 : S8x512.Slices ![0, 0] S8x128
  shapeCasts_S256x128_S256x1x128 : S256x128.ShapeCasts S256x1x128
  shapeCasts_S8x128_S1x8x128 : S8x128.ShapeCasts S1x8x128
  broadcasts_S256x1x128_S256x8x128 : S256x1x128.Broadcasts S256x8x128
  broadcasts_S1x8x128_S256x8x128 : S1x8x128.Broadcasts S256x8x128
  inb_S256x512_S256x128_0_128 : ∀ a, (![0, 128] : Fin 2 → Nat) a + S256x128.size a ≤ S256x512.size a
  slices_S8x512_o0_128_S8x128 : S8x512.Slices ![0, 128] S8x128
  inb_S256x512_S256x128_0_256 : ∀ a, (![0, 256] : Fin 2 → Nat) a + S256x128.size a ≤ S256x512.size a
  slices_S8x512_o0_256_S8x128 : S8x512.Slices ![0, 256] S8x128
  inb_S256x512_S256x128_0_384 : ∀ a, (![0, 384] : Fin 2 → Nat) a + S256x128.size a ≤ S256x512.size a
  slices_S8x512_o0_384_S8x128 : S8x512.Slices ![0, 384] S8x128
  reduces_S256x8x128_S256x8 : S256x8x128.Reduces [2] S256x8
  inb_S256x128_S256x8_0_0 : ∀ a, (![0, 0] : Fin 2 → Nat) a + S256x8.size a ≤ S256x128.size a
  h_S256x8 : 0 < S256x8.numel
  inb_S128x512_S8x512_8_0 : ∀ a, (![8, 0] : Fin 2 → Nat) a + S8x512.size a ≤ S128x512.size a
  inb_S256x128_S256x8_0_8 : ∀ a, (![0, 8] : Fin 2 → Nat) a + S256x8.size a ≤ S256x128.size a
  inb_S128x512_S8x512_16_0 : ∀ a, (![16, 0] : Fin 2 → Nat) a + S8x512.size a ≤ S128x512.size a
  inb_S256x128_S256x8_0_16 : ∀ a, (![0, 16] : Fin 2 → Nat) a + S256x8.size a ≤ S256x128.size a
  inb_S128x512_S8x512_24_0 : ∀ a, (![24, 0] : Fin 2 → Nat) a + S8x512.size a ≤ S128x512.size a
  inb_S256x128_S256x8_0_24 : ∀ a, (![0, 24] : Fin 2 → Nat) a + S256x8.size a ≤ S256x128.size a
  inb_S128x512_S8x512_32_0 : ∀ a, (![32, 0] : Fin 2 → Nat) a + S8x512.size a ≤ S128x512.size a
  inb_S256x128_S256x8_0_32 : ∀ a, (![0, 32] : Fin 2 → Nat) a + S256x8.size a ≤ S256x128.size a
  inb_S128x512_S8x512_40_0 : ∀ a, (![40, 0] : Fin 2 → Nat) a + S8x512.size a ≤ S128x512.size a
  inb_S256x128_S256x8_0_40 : ∀ a, (![0, 40] : Fin 2 → Nat) a + S256x8.size a ≤ S256x128.size a
  inb_S128x512_S8x512_48_0 : ∀ a, (![48, 0] : Fin 2 → Nat) a + S8x512.size a ≤ S128x512.size a
  inb_S256x128_S256x8_0_48 : ∀ a, (![0, 48] : Fin 2 → Nat) a + S256x8.size a ≤ S256x128.size a
  inb_S128x512_S8x512_56_0 : ∀ a, (![56, 0] : Fin 2 → Nat) a + S8x512.size a ≤ S128x512.size a
  inb_S256x128_S256x8_0_56 : ∀ a, (![0, 56] : Fin 2 → Nat) a + S256x8.size a ≤ S256x128.size a
  inb_S128x512_S8x512_64_0 : ∀ a, (![64, 0] : Fin 2 → Nat) a + S8x512.size a ≤ S128x512.size a
  inb_S256x128_S256x8_0_64 : ∀ a, (![0, 64] : Fin 2 → Nat) a + S256x8.size a ≤ S256x128.size a
  inb_S128x512_S8x512_72_0 : ∀ a, (![72, 0] : Fin 2 → Nat) a + S8x512.size a ≤ S128x512.size a
  inb_S256x128_S256x8_0_72 : ∀ a, (![0, 72] : Fin 2 → Nat) a + S256x8.size a ≤ S256x128.size a
  inb_S128x512_S8x512_80_0 : ∀ a, (![80, 0] : Fin 2 → Nat) a + S8x512.size a ≤ S128x512.size a
  inb_S256x128_S256x8_0_80 : ∀ a, (![0, 80] : Fin 2 → Nat) a + S256x8.size a ≤ S256x128.size a
  inb_S128x512_S8x512_88_0 : ∀ a, (![88, 0] : Fin 2 → Nat) a + S8x512.size a ≤ S128x512.size a
  inb_S256x128_S256x8_0_88 : ∀ a, (![0, 88] : Fin 2 → Nat) a + S256x8.size a ≤ S256x128.size a
  inb_S128x512_S8x512_96_0 : ∀ a, (![96, 0] : Fin 2 → Nat) a + S8x512.size a ≤ S128x512.size a
  inb_S256x128_S256x8_0_96 : ∀ a, (![0, 96] : Fin 2 → Nat) a + S256x8.size a ≤ S256x128.size a
  inb_S128x512_S8x512_104_0 : ∀ a, (![104, 0] : Fin 2 → Nat) a + S8x512.size a ≤ S128x512.size a
  inb_S256x128_S256x8_0_104 : ∀ a, (![0, 104] : Fin 2 → Nat) a + S256x8.size a ≤ S256x128.size a
  inb_S128x512_S8x512_112_0 : ∀ a, (![112, 0] : Fin 2 → Nat) a + S8x512.size a ≤ S128x512.size a
  inb_S256x128_S256x8_0_112 : ∀ a, (![0, 112] : Fin 2 → Nat) a + S256x8.size a ≤ S256x128.size a
  inb_S128x512_S8x512_120_0 : ∀ a, (![120, 0] : Fin 2 → Nat) a + S8x512.size a ≤ S128x512.size a
  inb_S256x128_S256x8_0_120 : ∀ a, (![0, 120] : Fin 2 → Nat) a + S256x8.size a ≤ S256x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S512x512.size a
  hwx0_1 : ∀ i : grid0.Coords, EltTy.bits .f32 = 32 ∨ (Rect.block (s := S512x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S1024x512.size a
  hwx0_2 : ∀ i : grid0.Coords, EltTy.bits .f32 = 32 ∨ (Rect.block (s := S1024x512) S256x128.size (cc0_transform_2 i) (hinb0_2 i)).WholeWords (EltTy.packing .f32)

variable [Facts₀]

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x512 : Shape := ⟨2, ![1024, 512]⟩
abbrev S512x512 : Shape := ⟨2, ![512, 512]⟩
abbrev S1024x1x512 : Shape := ⟨3, ![1024, 1, 512]⟩
abbrev S1x512x512 : Shape := ⟨3, ![1, 512, 512]⟩
abbrev S1024x512x512 : Shape := ⟨3, ![1024, 512, 512]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S512x512, .f32⟩
  | .hbm, ⟨2, _⟩ => ⟨S1024x1x512, .f32⟩
  | .hbm, ⟨3, _⟩ => ⟨S1x512x512, .f32⟩
  | .hbm, ⟨4, _⟩ => ⟨S1024x512x512, .f32⟩
  | .hbm, ⟨5, _⟩ => ⟨S1024x512x512, .f32⟩
  | .hbm, ⟨6, _⟩ => ⟨S1024x512x512, .f32⟩
  | .hbm, ⟨7, _⟩ => ⟨S_, .f32⟩
  | .hbm, ⟨8, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  bcast_S1024x512_S1024x1x512_0_2 : S1024x512.BroadcastsInDim S1024x1x512 (![0, 2] : Fin 2 → Fin S1024x1x512.rank)
  bcast_S512x512_S1x512x512_1_2 : S512x512.BroadcastsInDim S1x512x512 (![1, 2] : Fin 2 → Fin S1x512x512.rank)
  bcast_S1024x1x512_S1024x512x512_0_1_2 : S1024x1x512.BroadcastsInDim S1024x512x512 (![0, 1, 2] : Fin 3 → Fin S1024x512x512.rank)
  bcast_S1x512x512_S1024x512x512_0_1_2 : S1x512x512.BroadcastsInDim S1024x512x512 (![0, 1, 2] : Fin 3 → Fin S1024x512x512.rank)
  reducesTo_S1024x512x512_S1024x512_d2 : S1024x512x512.ReducesTo [2] S1024x512
  h_S_ : 0 < S_.numel

variable [Facts₀]

class Facts : Prop extends Facts₀ where

variable [Facts]
-- ==== Proof.LibFoldMinCover.lean ====
/-
  A minimum taken in groups of four.

  In a linear order the fold of `min` from a value `b` over a finite family `g` is the greatest lower bound of `b` and the
  family's members: `c ≤ fold ↔ c ≤ b ∧ ∀ i, c ≤ g i`. Two folds from the same `b` are therefore equal as soon as they have
  the same lower bounds. Here the second family is indexed by `κ` and its member at `l` is the minimum of four members of the
  first, `g (e₀ l)`, `g (e₁ l)`, `g (e₂ l)`, `g (e₃ l)`; the lower bounds agree when every index of the first family is
  `eₖ l` for some `k` and `l` (the fours COVER; they need not be disjoint, a minimum not caring how often a member is met).
  Nothing is asked of `b`, and nothing of the order beyond its being linear: on the extended reals the law holds at ±∞ as
  anywhere else.

  The instance used for a row of 512 entries read as 128 lanes of 4 chunks: `i = 128·k + l` with `k = i / 128`, `l = i % 128`.
-/
import Mathlib.Data.Finset.Fold
import Mathlib.Data.Fintype.Basic
import Mathlib.Order.Fin.Basic

namespace Cert.Lib.FoldMinCover

variable {α ι κ : Type*} [LinearOrder α] [Fintype ι] [Fintype κ]

/-- The fold of `min` from `b` over `g` is the fold from `b` over the minima of four members at a time, when the fours
    cover the index type. -/
theorem fold_min_four (b : α) (g : ι → α) (e₀ e₁ e₂ e₃ : κ → ι)
    (hcover : ∀ i : ι, ∃ l : κ, i = e₀ l ∨ i = e₁ l ∨ i = e₂ l ∨ i = e₃ l) :
    (Finset.univ : Finset ι).fold min b g
      = (Finset.univ : Finset κ).fold min b fun l => min (min (min (g (e₀ l)) (g (e₁ l))) (g (e₂ l))) (g (e₃ l)) := by
  refine eq_of_forall_le_iff fun c => ?_
  simp only [Finset.le_fold_min, le_min_iff, Finset.mem_univ, forall_true_left]
  constructor
  · rintro ⟨hb, h⟩
    exact ⟨hb, fun l => ⟨⟨⟨h _, h _⟩, h _⟩, h _⟩⟩
  · rintro ⟨hb, h⟩
    refine ⟨hb, fun i => ?_⟩
    obtain ⟨l, hl⟩ := hcover i
    rcases hl with rfl | rfl | rfl | rfl
    · exact (h l).1.1.1
    · exact (h l).1.1.2
    · exact (h l).1.2
    · exact (h l).2

/-- Entry `o + l` of a row of 512, for a lane `l < 128` and a chunk offset `o ≤ 384`. -/
def at512 (o : Nat) (ho : o + 128 ≤ 512) (l : Fin 128) : Fin 512 := ⟨o + l.val, by have := l.isLt; omega⟩

/-- A row of 512 entries is covered by its four chunks of 128 lanes. -/
theorem cover512 (i : Fin 512) : ∃ l : Fin 128,
    i = at512 0 (by decide) l ∨ i = at512 128 (by decide) l ∨ i = at512 256 (by decide) l ∨ i = at512 384 (by decide) l := by
  have hi := i.isLt
  refine ⟨⟨i.val % 128, Nat.mod_lt _ (by decide)⟩, ?_⟩
  have h4 : i.val / 128 < 4 := by omega
  have hdm := Nat.div_add_mod i.val 128
  rcases (by omega : i.val / 128 = 0 ∨ i.val / 128 = 1 ∨ i.val / 128 = 2 ∨ i.val / 128 = 3) with h | h | h | h
  · left; apply Fin.ext; simp only [at512]; omega
  · right; left; apply Fin.ext; simp only [at512]; omega
  · right; right; left; apply Fin.ext; simp only [at512]; omega
  · right; right; right; apply Fin.ext; simp only [at512]; omega

/-- The minimum over a row of 512 from `b` is the minimum over its 128 lanes of the minimum of the lane's four chunks. -/
theorem fold_min_512 (b : α) (g : Fin 512 → α) :
    (Finset.univ : Finset (Fin 512)).fold min b g
      = (Finset.univ : Finset (Fin 128)).fold min b fun l =>
          min (min (min (g (at512 0 (by decide) l)) (g (at512 128 (by decide) l))) (g (at512 256 (by decide) l)))
            (g (at512 384 (by decide) l)) :=
  fold_min_four b g _ _ _ _ cover512

end Cert.Lib.FoldMinCover
-- ==== Proof.MinPlusSpec.lean ====
/-
  The tropical (min-plus) product, entry by entry.

  For a matrix `X` with rows of 512 entries and a matrix `W` with rows of 512 entries, the min-plus product has at
  `(p, q)` the minimum over the 512 columns `i` of `X (p, i) + W (q, i)`, taken from the value of the float word
  `0x7F800000` (+∞), on the extended reals. The word is never evaluated: it is the same starting value wherever the product
  is computed, and the laws used below hold for any starting value.

  The same entry, lane by lane: the 512 columns are four chunks of 128 lanes, and the minimum over all columns is the minimum
  over the lanes of the minimum of the lane's four chunk entries (`LibFoldMinCover`: the two families have the same lower
  bounds). The sum `X (p, i) + W (q, i)` is one and the same extended-real sum on both sides, so nothing is asked of the
  entries: the statement holds at ±∞ too.
-/
import Idealize.ShloMosaic.PureOps.Ideal
import Idealize.ShloMosaic.Lib.ValueIdx
import proofs.«117689_j70832600646272_2_alg».proof.Proof.LibFoldMinCover

noncomputable section

namespace Cert.MinPlus

open Idealize.ShloMosaic Idealize.ShloMosaic.ValueIdx Cert.Lib.FoldMinCover

/-- The value the minimum starts from: the float word of +∞, read on the extended reals. -/
abbrev start : Ideal .f32 := Ideal.ofBits .f32 0x7F800000#32

/-- The min-plus product of `X` (`a` rows) and `W` (`b` rows), both with rows of 512 entries: at `j` the minimum over
    the columns `i` of `X (j 0, i) + W (j 1, i)`. -/
def minPlus {a b : Nat} (X : (⟨2, ![a, 512]⟩ : Shape).Idx → Ideal .f32) (W : (⟨2, ![b, 512]⟩ : Shape).Idx → Ideal .f32) :
    (⟨2, ![a, b]⟩ : Shape).Idx → Ideal .f32 :=
  fun j => (Finset.univ : Finset (Fin 512)).fold min start fun i => X (ix2 (j 0) i) + W (ix2 (j 1) i)

/-- The product's entry at `(p, q)`. -/
theorem minPlus_apply {a b : Nat} (X : (⟨2, ![a, 512]⟩ : Shape).Idx → Ideal .f32) (W : (⟨2, ![b, 512]⟩ : Shape).Idx → Ideal .f32)
    (p : Fin a) (q : Fin b) :
    minPlus X W (ix2 p q) = (Finset.univ : Finset (Fin 512)).fold min start fun i => X (ix2 p i) + W (ix2 q i) := rfl

/-- The product's entry at `(p, q)`, lane by lane: the minimum over the 128 lanes of the minimum of the lane's four chunk
    entries, at columns `l`, `128 + l`, `256 + l`, `384 + l`. -/
theorem minPlus_lanes {a b : Nat} (X : (⟨2, ![a, 512]⟩ : Shape).Idx → Ideal .f32) (W : (⟨2, ![b, 512]⟩ : Shape).Idx → Ideal .f32)
    (p : Fin a) (q : Fin b) :
    minPlus X W (ix2 p q) = (Finset.univ : Finset (Fin 128)).fold min start fun l =>
      min (min (min (X (ix2 p (at512 0 (by decide) l)) + W (ix2 q (at512 0 (by decide) l)))
                    (X (ix2 p (at512 128 (by decide) l)) + W (ix2 q (at512 128 (by decide) l))))
               (X (ix2 p (at512 256 (by decide) l)) + W (ix2 q (at512 256 (by decide) l))))
          (X (ix2 p (at512 384 (by decide) l)) + W (ix2 q (at512 384 (by decide) l))) :=
  (minPlus_apply X W p q).trans (fold_min_512 start fun i => X (ix2 p i) + W (ix2 q i))

end Cert.MinPlus

end
-- ==== Proof.ReferenceMinPlus.lean ====
/-
  The reference computes the min-plus product.

  The reference broadcasts `X` to `[1024, 1, 512]` and on to `[1024, 512, 512]`, `W` to `[1, 512, 512]` and on to
  `[1024, 512, 512]`, adds the two, and reduces the last axis with `minimum` from +∞. At `(p, q, k)` the first broadcast
  reads `X (p, k)` and the second `W (q, k)`, so the sum there is `X (p, k) + W (q, k)`; the reduction at `(p, q)` folds
  `min` from the +∞ word's value over the coordinate `k` of the dropped axis, the index `(p, q)` with `k` put back being
  `(p, q, k)`. That is the product's entry at `(p, q)` as `MinPlusSpec` states it.
-/
import proofs.«117689_j70832600646272_2_alg».proof.Proof.Gen.ReferenceIdeal.Read
import proofs.«117689_j70832600646272_2_alg».proof.Proof.MinPlusSpec
import Idealize.ShloMosaic.PureOps.Reduce
import Idealize.ShloMosaic.PureOps.Ideal.Laws

noncomputable section

namespace Cert.MinPlus.Reference

open Idealize.ShloMosaic Idealize.ShloMosaic.ValueIdx
open Cert.ReferenceIdeal Cert.ReferenceIdeal.Gen Cert.ReferenceIdeal.Read

/-- The last axis of `[1024, 512, 512]` drops to `[1024, 512]`. -/
theorem reduces_last : S1024x512x512.Reduces [2] S1024x512 := by decide

/-- The index `(p, q)` with the coordinate `k` put back on the dropped axis is `(p, q, k)`. -/
theorem lift_pq (p : Fin 1024) (q : Fin 512) (k : Fin (S1024x512x512.size 2)) :
    reduces_last.lift (ix2 p q) k = ix3 p q (⟨k.val, k.isLt⟩ : Fin 512) := by
  funext c; apply Fin.ext
  fin_cases c <;> rfl

/-- The broadcast of `X` read at `(p, q, k)` is `X (p, k)`. -/
theorem bcastX_apply (X : (⟨S1024x512, .f32⟩ : BufTy).Contents (Elt Ideal)) (p : Fin 1024) (q k : Fin 512) :
    val_main_v2 (F := Ideal) X (ix3 p q k) = X (ix2 p k) := by
  rw [val_main_v2_apply, val_main_v0_apply]
  exact congrArg X (funext fun a => Fin.ext (by match a with | ⟨0, _⟩ => rfl | ⟨1, _⟩ => rfl))

/-- The broadcast of `W` read at `(p, q, k)` is `W (q, k)`. -/
theorem bcastW_apply (W : (⟨S512x512, .f32⟩ : BufTy).Contents (Elt Ideal)) (p : Fin 1024) (q k : Fin 512) :
    val_main_v3 (F := Ideal) W (ix3 p q k) = W (ix2 q k) := by
  rw [val_main_v3_apply, val_main_v1_apply]
  exact congrArg W (funext fun a => Fin.ext (by match a with | ⟨0, _⟩ => rfl | ⟨1, _⟩ => rfl))

/-- The reference's result is the min-plus product of its arguments. -/
theorem result_eq (X : (⟨S1024x512, .f32⟩ : BufTy).Contents (Elt Ideal)) (W : (⟨S512x512, .f32⟩ : BufTy).Contents (Elt Ideal)) :
    val_main_v5 (F := Ideal) X W = minPlus X W := by
  funext j
  obtain ⟨p, q, rfl⟩ : ∃ (p : Fin 1024) (q : Fin 512), j = ix2 p q := ⟨j 0, j 1, eq_ix2 j⟩
  unfold val_main_v5
  refine (Host.reduce_eq_fold_single (α := Ideal .f32) (FloatOps.minimumf (F := Ideal) (φ := .f32))
    (val_main_v4 (F := Ideal) X W) (val_main_cst (F := Ideal))
    reducesTo_S1024x512x512_S1024x512_d2 reduces_last h_S_ (ix2 p q)).trans ?_
  rw [minPlus_apply]
  refine congrArg (fun f => Finset.fold min start f (Finset.univ : Finset (Fin 512))) (funext fun k => ?_)
  show val_main_v4 (F := Ideal) X W (reduces_last.lift (ix2 p q) k) = X (ix2 p k) + W (ix2 q k)
  rw [lift_pq, val_main_v4_apply, bcastX_apply, bcastW_apply]
  rfl

end Cert.MinPlus.Reference

end
-- ==== Proof.SubTile.lean ====
/-
  One sub-tile of the kernel body: eight output columns at a time.

  The body handles its 128 output columns in sixteen sub-tiles of eight. For a sub-tile it loads a slab `w` of eight rows of
  the weight block (8 × 512) and the four column chunks `a₀ … a₃` of the input block (256 × 128 each), and for each chunk
  forms the three-way array `(p, q, l) ↦ a_c (p, l) + w (q, o_c + l)` with `o_c = 0, 128, 256, 384` — the input chunk
  broadcast along the eight weight rows, the weight slab's chunk broadcast along the 256 input rows (`chunk`). The four
  arrays are joined by an entrywise minimum and the result is reduced along the lanes `l` with `minimum` from +∞
  (`subtile`): at `(p, q)` the minimum over the 128 lanes of the minimum of the lane's four chunk sums.

  The printed body is cut into windows of sixty statements by count alone, so a sub-tile's stored value is printed as one
  term or as a composition of two or three terms depending on where the cuts fall; every one of the sixteen is the same
  function `subtile` of its loads (the sixteen equations below hold by unfolding).
-/
import proofs.«117689_j70832600646272_2_alg».proof.Proof.Gen.KernelIdeal.Skeleton
import proofs.«117689_j70832600646272_2_alg».proof.Proof.MinPlusSpec
import Idealize.ShloMosaic.Lib.Pipeline.Value
import Idealize.ShloMosaic.Lib.ValueLayout
import Idealize.ShloMosaic.PureOps.Reduce
import Idealize.ShloMosaic.PureOps.Ideal.Laws

noncomputable section

namespace Cert.MinPlus.Kernel

open Idealize.ShloMosaic Idealize.ShloMosaic.ValueIdx Cert.Lib.FoldMinCover
open Cert.KernelIdeal Cert.KernelIdeal.Gen

section AnyInstance

variable {F : FTy → Type} [FloatOps F]

/-- One chunk's sums: the input chunk `x` along the eight weight rows plus the weight slab's columns `o … o + 127` along the
    256 input rows. -/
def chunk (o : Nat) (hs : S8x512.Slices ![0, o] S8x128) (w : Vec F S8x512 .f32) (x : Vec F S256x128 .f32) :
    FVec F S256x8x128 .f32 :=
  addf (broadcastTo S256x8x128 (shapeCast S256x1x128 x shapeCasts_S256x128_S256x1x128) broadcasts_S256x1x128_S256x8x128)
    (broadcastTo S256x8x128 (shapeCast S1x8x128 (extractStridedSlice S8x128 ![0, o] w hs) shapeCasts_S8x128_S1x8x128)
      broadcasts_S1x8x128_S256x8x128)

/-- A sub-tile's stored value: the four chunks joined by an entrywise minimum, reduced along the lanes from +∞. -/
def subtile (w : Vec F S8x512 .f32) (a0 a1 a2 a3 : Vec F S256x128 .f32) : FVec F S256x8 .f32 :=
  multiReduction .minimumf [2] S256x8
    (minimumf (minimumf (minimumf (chunk 0 slices_S8x512_o0_0_S8x128 w a0) (chunk 128 slices_S8x512_o0_128_S8x128 w a1))
      (chunk 256 slices_S8x512_o0_256_S8x128 w a2)) (chunk 384 slices_S8x512_o0_384_S8x128 w a3))
    0x7F800000#32 reduces_S256x8x128_S256x8 (.inl rfl) rfl

/-! The sixteen stored values, in the body's order, are `subtile` of their loads. -/

theorem stored0 (w : Vec F S8x512 .f32) (a0 a1 a2 a3 : Vec F S256x128 .f32) :
    k0_pay1 w a0 a1 a2 a3 = subtile w a0 a1 a2 a3 := rfl
theorem stored1 (w : Vec F S8x512 .f32) (a0 a1 a2 a3 : Vec F S256x128 .f32) :
    k0_pay4 w (k0_pay2 w) (k0_pay3 a0) a1 a2 a3 = subtile w a0 a1 a2 a3 := rfl
theorem stored2 (w : Vec F S8x512 .f32) (a0 a1 a2 a3 : Vec F S256x128 .f32) :
    k0_pay6 w (k0_pay5 w a0 a1) a2 a3 = subtile w a0 a1 a2 a3 := rfl
theorem stored3 (w : Vec F S8x512 .f32) (a0 a1 a2 a3 : Vec F S256x128 .f32) :
    k0_pay8 w (k0_pay7 w a0 a1 a2) a3 = subtile w a0 a1 a2 a3 := rfl
theorem stored4 (w : Vec F S8x512 .f32) (a0 a1 a2 a3 : Vec F S256x128 .f32) :
    k0_pay9 w a0 a1 a2 a3 = subtile w a0 a1 a2 a3 := rfl
theorem stored5 (w : Vec F S8x512 .f32) (a0 a1 a2 a3 : Vec F S256x128 .f32) :
    k0_pay10 w a0 a1 a2 a3 = subtile w a0 a1 a2 a3 := rfl
theorem stored6 (w : Vec F S8x512 .f32) (a0 a1 a2 a3 : Vec F S256x128 .f32) :
    k0_pay13 w (k0_pay11 w) (k0_pay12 a0) a1 a2 a3 = subtile w a0 a1 a2 a3 := rfl
theorem stored7 (w : Vec F S8x512 .f32) (a0 a1 a2 a3 : Vec F S256x128 .f32) :
    k0_pay15 w (k0_pay14 w a0 a1) a2 a3 = subtile w a0 a1 a2 a3 := rfl
theorem stored8 (w : Vec F S8x512 .f32) (a0 a1 a2 a3 : Vec F S256x128 .f32) :
    k0_pay17 w (k0_pay16 w a0 a1 a2) a3 = subtile w a0 a1 a2 a3 := rfl
theorem stored9 (w : Vec F S8x512 .f32) (a0 a1 a2 a3 : Vec F S256x128 .f32) :
    k0_pay18 w a0 a1 a2 a3 = subtile w a0 a1 a2 a3 := rfl
theorem stored10 (w : Vec F S8x512 .f32) (a0 a1 a2 a3 : Vec F S256x128 .f32) :
    k0_pay19 w a0 a1 a2 a3 = subtile w a0 a1 a2 a3 := rfl
theorem stored11 (w : Vec F S8x512 .f32) (a0 a1 a2 a3 : Vec F S256x128 .f32) :
    k0_pay22 w (k0_pay20 w) (k0_pay21 a0) a1 a2 a3 = subtile w a0 a1 a2 a3 := rfl
theorem stored12 (w : Vec F S8x512 .f32) (a0 a1 a2 a3 : Vec F S256x128 .f32) :
    k0_pay24 w (k0_pay23 w a0 a1) a2 a3 = subtile w a0 a1 a2 a3 := rfl
theorem stored13 (w : Vec F S8x512 .f32) (a0 a1 a2 a3 : Vec F S256x128 .f32) :
    k0_pay26 w (k0_pay25 w a0 a1 a2) a3 = subtile w a0 a1 a2 a3 := rfl
theorem stored14 (w : Vec F S8x512 .f32) (a0 a1 a2 a3 : Vec F S256x128 .f32) :
    k0_pay27 w a0 a1 a2 a3 = subtile w a0 a1 a2 a3 := rfl
theorem stored15 (w : Vec F S8x512 .f32) (a0 a1 a2 a3 : Vec F S256x128 .f32) :
    k0_pay28 w a0 a1 a2 a3 = subtile w a0 a1 a2 a3 := rfl

end AnyInstance

/-! ## On the extended reals -/

/-- The last axis of `[256, 8, 128]` dropped: the index `(p, q)` with the lane `l` put back is `(p, q, l)`. -/
theorem lift_lane (p : Fin 256) (q : Fin 8) (l : Fin (S256x8x128.size 2)) :
    reduces_S256x8x128_S256x8.lift (ix2 p q) l = ix3 p q (⟨l.val, l.isLt⟩ : Fin 128) := by
  funext c; apply Fin.ext
  fin_cases c <;> rfl

/-- A chunk's sums read at `(p, q, l)`: the input chunk at `(p, l)` plus the weight slab at `(q, o + l)`. -/
theorem chunk_apply (o : Nat) (ho : o + 128 ≤ 512) (hs : S8x512.Slices ![0, o] S8x128) (w : Vec Ideal S8x512 .f32)
    (x : Vec Ideal S256x128 .f32) (p : Fin 256) (q : Fin 8) (l : Fin 128) :
    chunk (F := Ideal) o hs w x (ix3 p q l) = x (ix2 p l) + w (ix2 q (at512 o ho l)) := by
  have hx : broadcastTo S256x8x128 (shapeCast S256x1x128 x shapeCasts_S256x128_S256x1x128)
      broadcasts_S256x1x128_S256x8x128 (ix3 p q l) = x (ix2 p l) := by
    refine (broadcastTo_apply _ broadcasts_S256x1x128_S256x8x128 (ix3 p q l) (ix3 p (0 : Fin 1) l) (fun a => by
      match a with
      | ⟨0, _⟩ => rfl
      | ⟨1, _⟩ => rfl
      | ⟨2, _⟩ => rfl)).trans ?_
    exact shapeCast_apply x shapeCasts_S256x128_S256x1x128 (ix3 p (0 : Fin 1) l) (ix2 p l) (by
      rw [Shape.rowMajor_val_two, Shape.rowMajor_val_three]
      show p.val * 128 + l.val = (p.val * 1 + 0) * 128 + l.val
      omega)
  have hw : broadcastTo S256x8x128 (shapeCast S1x8x128 (extractStridedSlice S8x128 ![0, o] w hs) shapeCasts_S8x128_S1x8x128)
      broadcasts_S1x8x128_S256x8x128 (ix3 p q l) = w (ix2 q (at512 o ho l)) := by
    refine (broadcastTo_apply _ broadcasts_S1x8x128_S256x8x128 (ix3 p q l) (ix3 (0 : Fin 1) q l) (fun a => by
      match a with
      | ⟨0, _⟩ => rfl
      | ⟨1, _⟩ => rfl
      | ⟨2, _⟩ => rfl)).trans ?_
    refine (shapeCast_ab_1ab_apply _ shapeCasts_S8x128_S1x8x128 (0 : Fin 1) q l).trans ?_
    exact slice2_axis1_apply o w hs q l (at512 o ho l) rfl
  unfold chunk
  rw [addf_apply, hx, hw]

/-- A sub-tile's stored value at `(p, q)`: the minimum over the 128 lanes, from +∞, of the minimum of the lane's four chunk
    sums. -/
theorem subtile_apply (w : Vec Ideal S8x512 .f32) (a0 a1 a2 a3 : Vec Ideal S256x128 .f32) (p : Fin 256) (q : Fin 8) :
    subtile (F := Ideal) w a0 a1 a2 a3 (ix2 p q) = (Finset.univ : Finset (Fin 128)).fold min start fun l =>
      min (min (min (a0 (ix2 p l) + w (ix2 q (at512 0 (by decide) l))) (a1 (ix2 p l) + w (ix2 q (at512 128 (by decide) l))))
        (a2 (ix2 p l) + w (ix2 q (at512 256 (by decide) l)))) (a3 (ix2 p l) + w (ix2 q (at512 384 (by decide) l))) := by
  unfold subtile
  refine (multiReduction_minimumf_eq_fold _ _ reduces_S256x8x128_S256x8 (.inl rfl) rfl (ix2 p q)).trans ?_
  refine (reduces_S256x8x128_S256x8.fold_filter_drop_single (FloatOps.minimumf (F := Ideal) (φ := .f32)) _ _ (ix2 p q)).trans ?_
  refine congrArg (fun f => Finset.fold min start f (Finset.univ : Finset (Fin 128))) (funext fun l => ?_)
  show minimumf (minimumf (minimumf (chunk (F := Ideal) 0 slices_S8x512_o0_0_S8x128 w a0) (chunk 128 slices_S8x512_o0_128_S8x128 w a1))
      (chunk 256 slices_S8x512_o0_256_S8x128 w a2)) (chunk 384 slices_S8x512_o0_384_S8x128 w a3)
      (reduces_S256x8x128_S256x8.lift (ix2 p q) l) = _
  rw [lift_lane, minimumf_apply, minimumf_apply, minimumf_apply,
    chunk_apply 0 (by decide), chunk_apply 128 (by decide), chunk_apply 256 (by decide), chunk_apply 384 (by decide)]
  rfl

end Cert.MinPlus.Kernel

end
-- ==== Proof.BlockValue.lean ====
/-
  What the body leaves in the output block.

  The body's sixteen stores write the sub-tiles' values through the column rectangles `[0 … 255] × [8s … 8s + 7]` of the
  256 × 128 output block; together the rectangles tile the block. Sub-tile `s` is computed from rows `8s … 8s + 7` of the
  128 × 512 weight block and the four column chunks of the 256 × 512 input block, so at its local `(p, q)` it holds the
  minimum over the lanes of the four chunk sums `x₀ (p, o_c + l) + x₁ (8s + q, o_c + l)` — by `MinPlusSpec.minPlus_lanes`
  the min-plus product of the two blocks at `(p, 8s + q)`, the block index the store's rectangle gives `(p, q)`. Every piece
  being the restriction of that ONE function of the block index, the block ends holding the min-plus product of the input
  block and the weight block.
-/
import proofs.«117689_j70832600646272_2_alg».proof.Proof.Gen.KernelIdeal.Frame
import proofs.«117689_j70832600646272_2_alg».proof.Proof.SubTile

set_option maxRecDepth 16384

noncomputable section

namespace Cert.MinPlus.Kernel

open Idealize.ShloMosaic Idealize.ShloMosaic.ValueIdx Cert.Lib.FoldMinCover
open Cert.KernelIdeal Cert.KernelIdeal.Gen

/-- A load of the input block through the rectangle of columns `o … o + 127`, at `(p, l)`: the block at `(p, o + l)`. -/
theorem ld_chunk (o : Nat) (ho : o + 128 ≤ 512) (inb : ∀ a, (![0, o] : Fin 2 → Nat) a + S256x128.size a ≤ S256x512.size a)
    (x0 : Vec Ideal S256x512 .f32) (p : Fin 256) (l : Fin 128) :
    View.ld x0 (Rect.unit (s := S256x512) ![0, o] S256x128.size inb) (ix2 p l) = x0 (ix2 p (at512 o ho l)) := by
  refine congrArg x0 (funext fun a => Fin.ext ?_)
  match a with
  | ⟨0, _⟩ => show 0 + 1 * p.val = p.val; omega
  | ⟨1, _⟩ => show o + 1 * l.val = o + l.val; omega

/-- A load of the weight block through the rectangle of rows `o … o + 7`, at `(q, i)`: the block at `(o + q, i)`. -/
theorem ld_slab (o : Nat) (ho : o + 8 ≤ 128) (inb : ∀ a, (![o, 0] : Fin 2 → Nat) a + S8x512.size a ≤ S128x512.size a)
    (x1 : Vec Ideal S128x512 .f32) (q : Fin 8) (i : Fin 512) :
    View.ld x1 (Rect.unit (s := S128x512) ![o, 0] S8x512.size inb) (ix2 q i)
      = x1 (ix2 (⟨o + q.val, by have := q.isLt; omega⟩ : Fin 128) i) := by
  refine congrArg x1 (funext fun a => Fin.ext ?_)
  match a with
  | ⟨0, _⟩ => show o + 1 * q.val = o + q.val; omega
  | ⟨1, _⟩ => show 0 + 1 * i.val = i.val; omega

/-- The sub-tile stored through the rectangle of columns `o … o + 7`, computed from weight rows `o … o + 7`, is at each of
    its indices the min-plus product of the blocks at the block index under it. -/
theorem piece_eq (o : Nat) (ho : o + 8 ≤ 128) (inbW : ∀ a, (![o, 0] : Fin 2 → Nat) a + S8x512.size a ≤ S128x512.size a)
    (inbO : ∀ a, (![0, o] : Fin 2 → Nat) a + S256x8.size a ≤ S256x128.size a)
    (x0 : Vec Ideal S256x512 .f32) (x1 : Vec Ideal S128x512 .f32) (x : S256x8.Idx) :
    subtile (F := Ideal) (View.ld x1 (Rect.unit (s := S128x512) ![o, 0] S8x512.size inbW)) (View.ld x0 r0_1) (View.ld x0 r0_2)
        (View.ld x0 r0_3) (View.ld x0 r0_4) x
      = minPlus x0 x1 ((Rect.unit (s := S256x128) ![0, o] S256x8.size inbO).emb x) := by
  obtain ⟨p, q, rfl⟩ : ∃ (p : Fin 256) (q : Fin 8), x = ix2 p q := ⟨x 0, x 1, eq_ix2 x⟩
  have he : (Rect.unit (s := S256x128) ![0, o] S256x8.size inbO).emb (ix2 p q)
      = ix2 p (⟨o + q.val, by have := q.isLt; omega⟩ : Fin 128) := by
    funext a; apply Fin.ext
    match a with
    | ⟨0, _⟩ => show 0 + 1 * p.val = p.val; omega
    | ⟨1, _⟩ => show o + 1 * q.val = o + q.val; omega
  rw [he, minPlus_lanes, subtile_apply]
  refine congrArg (fun f => Finset.fold min start f (Finset.univ : Finset (Fin 128))) (funext fun l => ?_)
  rw [ld_chunk 0 (by decide), ld_chunk 128 (by decide), ld_chunk 256 (by decide), ld_chunk 384 (by decide),
    ld_slab o ho, ld_slab o ho, ld_slab o ho, ld_slab o ho]

/-- Sixteen stores through the sixteen column rectangles, each the restriction of ONE function `G` of the block index
    to its rectangle, leave the block holding `G`: the rectangles tile the block, and under each the store's value is `G`.
    (The stored values are variables here: only the rectangles matter.) -/
theorem canon_columns (G : S256x128.Idx → Ideal .f32) (p0 p1 p2 p3 p4 p5 p6 p7 p8 p9 p10 p11 p12 p13 p14 p15 : Vec Ideal S256x8 .f32)
    (h0 : ∀ x, p0 x = G (r0_35.emb x))
    (h1 : ∀ x, p1 x = G (r0_33.emb x))
    (h2 : ∀ x, p2 x = G (r0_31.emb x))
    (h3 : ∀ x, p3 x = G (r0_29.emb x))
    (h4 : ∀ x, p4 x = G (r0_27.emb x))
    (h5 : ∀ x, p5 x = G (r0_25.emb x))
    (h6 : ∀ x, p6 x = G (r0_23.emb x))
    (h7 : ∀ x, p7 x = G (r0_21.emb x))
    (h8 : ∀ x, p8 x = G (r0_19.emb x))
    (h9 : ∀ x, p9 x = G (r0_17.emb x))
    (h10 : ∀ x, p10 x = G (r0_15.emb x))
    (h11 : ∀ x, p11 x = G (r0_13.emb x))
    (h12 : ∀ x, p12 x = G (r0_11.emb x))
    (h13 : ∀ x, p13 x = G (r0_9.emb x))
    (h14 : ∀ x, p14 x = G (r0_7.emb x))
    (h15 : ∀ x, p15 x = G (r0_5.emb x)) :
    View.canon (Val := Elt Ideal) (s := S256x128) (e := .f32) [⟨r0_35, p0⟩, ⟨r0_33, p1⟩, ⟨r0_31, p2⟩, ⟨r0_29, p3⟩, ⟨r0_27, p4⟩, ⟨r0_25, p5⟩, ⟨r0_23, p6⟩, ⟨r0_21, p7⟩, ⟨r0_19, p8⟩, ⟨r0_17, p9⟩, ⟨r0_15, p10⟩, ⟨r0_13, p11⟩, ⟨r0_11, p12⟩, ⟨r0_9, p13⟩, ⟨r0_7, p14⟩, ⟨r0_5, p15⟩] = G := by
  funext y
  refine View.canon_apply_of_pieces (Val := Elt Ideal) (S := S256x128) (e := .f32) G _ ?_ y
    (cover0_2 p0 p1 p2 p3 p4 p5 p6 p7 p8 p9 p10 p11 p12 p13 p14 p15 y)
  intro pc hpc x
  simp only [List.mem_cons, List.not_mem_nil, or_false] at hpc
  rcases hpc with rfl | rfl | rfl | rfl | rfl | rfl | rfl | rfl | rfl | rfl | rfl | rfl | rfl | rfl | rfl | rfl
  exacts [h0 x, h1 x, h2 x, h3 x, h4 x, h5 x, h6 x, h7 x, h8 x, h9 x, h10 x, h11 x, h12 x, h13 x, h14 x, h15 x]

/-- THE OUTPUT BLOCK after the body is the min-plus product of the input block and the weight block. -/
theorem out_eq (x0 : Vec Ideal S256x512 .f32) (x1 : Vec Ideal S128x512 .f32) :
    out0_2 (F := Ideal) x0 x1 = minPlus x0 x1 := by
  unfold out0_2
  rw [stored15, stored14, stored13, stored12, stored11, stored10, stored9, stored8, stored7, stored6, stored5, stored4, stored3, stored2, stored1, stored0]
  exact canon_columns (minPlus x0 x1) _ _ _ _ _ _ _ _ _ _ _ _ _ _ _ _
    (fun x => piece_eq 120 (by decide) inb_S128x512_S8x512_120_0 inb_S256x128_S256x8_0_120 x0 x1 x)
    (fun x => piece_eq 112 (by decide) inb_S128x512_S8x512_112_0 inb_S256x128_S256x8_0_112 x0 x1 x)
    (fun x => piece_eq 104 (by decide) inb_S128x512_S8x512_104_0 inb_S256x128_S256x8_0_104 x0 x1 x)
    (fun x => piece_eq 96 (by decide) inb_S128x512_S8x512_96_0 inb_S256x128_S256x8_0_96 x0 x1 x)
    (fun x => piece_eq 88 (by decide) inb_S128x512_S8x512_88_0 inb_S256x128_S256x8_0_88 x0 x1 x)
    (fun x => piece_eq 80 (by decide) inb_S128x512_S8x512_80_0 inb_S256x128_S256x8_0_80 x0 x1 x)
    (fun x => piece_eq 72 (by decide) inb_S128x512_S8x512_72_0 inb_S256x128_S256x8_0_72 x0 x1 x)
    (fun x => piece_eq 64 (by decide) inb_S128x512_S8x512_64_0 inb_S256x128_S256x8_0_64 x0 x1 x)
    (fun x => piece_eq 56 (by decide) inb_S128x512_S8x512_56_0 inb_S256x128_S256x8_0_56 x0 x1 x)
    (fun x => piece_eq 48 (by decide) inb_S128x512_S8x512_48_0 inb_S256x128_S256x8_0_48 x0 x1 x)
    (fun x => piece_eq 40 (by decide) inb_S128x512_S8x512_40_0 inb_S256x128_S256x8_0_40 x0 x1 x)
    (fun x => piece_eq 32 (by decide) inb_S128x512_S8x512_32_0 inb_S256x128_S256x8_0_32 x0 x1 x)
    (fun x => piece_eq 24 (by decide) inb_S128x512_S8x512_24_0 inb_S256x128_S256x8_0_24 x0 x1 x)
    (fun x => piece_eq 16 (by decide) inb_S128x512_S8x512_16_0 inb_S256x128_S256x8_0_16 x0 x1 x)
    (fun x => piece_eq 8 (by decide) inb_S128x512_S8x512_8_0 inb_S256x128_S256x8_0_8 x0 x1 x)
    (fun x => piece_eq 0 (by decide) inb_S128x512_S8x512_0_0 inb_S256x128_S256x8_0_0 x0 x1 x)

end Cert.MinPlus.Kernel

end
-- ==== Proof.KernelValue.lean ====
/-
  From the blocks to the whole array.

  The grid has 4 × 4 points. At point `t` the output window's block is block `(bᵣ, b_c)` of the 1024 × 512 result (rows
  `256·bᵣ …`, columns `128·b_c …`), the input window's block is row block `bᵣ` of `X` (all 512 columns) and the weight
  window's block is row block `b_c` of `W` (all 512 columns) — the relations between the three printed index maps, decided
  once over the sixteen points. So entry `(p, i)` of the input block is `X (256·bᵣ + p, i)`, entry `(q, i)` of the weight
  block is `W (128·b_c + q, i)`, and the min-plus product of the two blocks at `(p, q)` is the min-plus product of `X` and
  `W` at `(256·bᵣ + p, 128·b_c + q)`: what point `t` writes back is block `t` of the one whole-array function
  `minPlus X W`. The sixteen blocks tile the result (the block holding `(r, s)` is `(r / 256, s / 128)`), so after the run
  the result array is `minPlus X W`, and the arguments are as launched.
-/
import proofs.«117689_j70832600646272_2_alg».proof.Proof.Gen.KernelIdeal.Value
import proofs.«117689_j70832600646272_2_alg».proof.Proof.BlockValue

set_option maxRecDepth 16384

noncomputable section

namespace Cert.MinPlus.Kernel

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The three index maps over the sixteen grid points: the input window sits at the output's row block and column block 0,
    the weight window at the output's column block (as ITS row block) and column block 0, and the output's block indices
    are at most 3. -/
theorem index_facts : ∀ t : Fin cfg0.N,
      win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 3 ∧ win0_2.index t (1 : Fin 2) ≤ 3 :=
  (by decide +kernel : ∀ t : Fin grid0.N, _)

/-- Every one of the 4 × 4 blocks of the result is some point's. -/
theorem index_onto : ∀ (b0 : Fin 4) (b1 : Fin 4), ∃ t : Fin cfg0.N, win0_2.index t = ![b0.val, b1.val] :=
  (by decide +kernel : ∀ (b0 : Fin 4) (b1 : Fin 4), ∃ t : Fin grid0.N, win0_2.index t = ![b0.val, b1.val])

/-- Entry `(p, i)` of the input block at point `t` is `X (r, i)`, `r` the row `p` of the output's row block. -/
theorem xblock_apply (c : Dev nD) (t : Fin cfg0.N) (p : Fin 256) (i : Fin 512) (r : Fin 1024)
    (hr : r.val = win0_2.index t (0 : Fin 2) * 256 + p.val) :
    (iblk m c 0 t : Vec Ideal S256x512 .f32) (ix2 p i) = (V m c main_arg0 : S1024x512.Idx → Ideal .f32) (ix2 r i) := by
  obtain ⟨e0, e1, -, -, -, -⟩ := index_facts t
  unfold iblk
  rw [View.read_apply]
  show V m c main_arg0 _ = V m c main_arg0 _
  congr 1
  funext a
  apply Fin.ext
  match a with
  | ⟨0, _⟩ => show win0_0.index t (0 : Fin 2) * 256 + 1 * p.val = r.val; omega
  | ⟨1, _⟩ => show win0_0.index t (1 : Fin 2) * 512 + 1 * i.val = i.val; omega

/-- Entry `(q, i)` of the weight block at point `t` is `W (s, i)`, `s` the row `q` of the output's COLUMN block. -/
theorem wblock_apply (c : Dev nD) (t : Fin cfg0.N) (q : Fin 128) (i : Fin 512) (s : Fin 512)
    (hs : s.val = win0_2.index t (1 : Fin 2) * 128 + q.val) :
    (iblk m c 1 t : Vec Ideal S128x512 .f32) (ix2 q i) = (V m c main_arg1 : S512x512.Idx → Ideal .f32) (ix2 s i) := by
  obtain ⟨-, -, e2, e3, -, -⟩ := index_facts t
  unfold iblk
  rw [View.read_apply]
  show V m c main_arg1 _ = V m c main_arg1 _
  congr 1
  funext a
  apply Fin.ext
  match a with
  | ⟨0, _⟩ => show win0_1.index t (0 : Fin 2) * 128 + 1 * q.val = s.val; omega
  | ⟨1, _⟩ => show win0_1.index t (1 : Fin 2) * 512 + 1 * i.val = i.val; omega

/-- The min-plus product of the two blocks at point `t`, at a block index `y`, is the min-plus product of `X` and `W` at
    the array index `k` under `y` in the output's block. -/
theorem block_entry (c : Dev nD) (t : Fin cfg0.N) (y : S256x128.Idx) (k : S1024x512.Idx)
    (hk0 : (k 0).val = win0_2.index t (0 : Fin 2) * 256 + 1 * (y 0).val)
    (hk1 : (k 1).val = win0_2.index t (1 : Fin 2) * 128 + 1 * (y 1).val) :
    minPlus (iblk m c 0 t : Vec Ideal S256x512 .f32) (iblk m c 1 t : Vec Ideal S128x512 .f32) y
      = minPlus (V m c main_arg0 : S1024x512.Idx → Ideal .f32) (V m c main_arg1 : S512x512.Idx → Ideal .f32) k := by
  obtain ⟨p, q, rfl⟩ : ∃ (p : Fin 256) (q : Fin 128), y = ix2 p q := ⟨y 0, y 1, eq_ix2 y⟩
  obtain ⟨r, s, rfl⟩ : ∃ (r : Fin 1024) (s : Fin 512), k = ix2 r s := ⟨k 0, k 1, eq_ix2 k⟩
  have hr : r.val = win0_2.index t (0 : Fin 2) * 256 + p.val := by
    have : r.val = win0_2.index t (0 : Fin 2) * 256 + 1 * p.val := hk0
    omega
  have hs : s.val = win0_2.index t (1 : Fin 2) * 128 + q.val := by
    have : s.val = win0_2.index t (1 : Fin 2) * 128 + 1 * q.val := hk1
    omega
  rw [minPlus_apply, minPlus_apply]
  refine congrArg (fun f => Finset.fold min start f (Finset.univ : Finset (Fin 512))) (funext fun i => ?_)
  rw [xblock_apply m c t p i r hr, wblock_apply m c t q i s hs]

/-- WHAT POINT `t` WRITES BACK is block `t` of the min-plus product of the argument arrays. -/
theorem flushed_eq (c : Dev nD) (t : Fin cfg0.N) :
    (dats m 0 c).flushed 2 t
      = ((cfg0.win 2).blk t).view.read (Elt Ideal)
          (minPlus (V m c main_arg0 : S1024x512.Idx → Ideal .f32) (V m c main_arg1 : S512x512.Idx → Ideal .f32)) := by
  rw [Cert.KernelIdeal.Value.flushed2, out_eq]
  funext j
  exact block_entry m c t j (((cfg0.win 2).blk t).view.emb j) rfl rfl

/-- An index of the result is in point `t`'s block iff each coordinate is in the block's range on its axis. -/
theorem mem_block (t : Fin cfg0.N) (i : S1024x512.Idx) :
    i ∈ ((cfg0.win 2).blk t).view.set ↔ ∀ a : Fin 2, win0_2.index t a * S256x128.size a ≤ (i a).val
      ∧ (i a).val < win0_2.index t a * S256x128.size a + S256x128.size a := by
  show i ∈ ((View.whole main_v0).slice (win0_2.rect t)).set ↔ _
  rw [View.set_slice_whole, Rect.mem_set_unit]
  exact Iff.rfl

/-- Every index of the result is in some point's block: row block `r / 256`, column block `s / 128`. -/
theorem covered (i : S1024x512.Idx) : ∃ t : Fin cfg0.N, (cfg0.win 2).flush t = true ∧ i ∈ ((cfg0.win 2).blk t).view.set := by
  have hi0 : (i 0).val < 1024 := (i 0).isLt
  have hi1 : (i 1).val < 512 := (i 1).isLt
  obtain ⟨t, ht⟩ := index_onto ⟨(i 0).val / 256, by omega⟩ ⟨(i 1).val / 128, by omega⟩
  have b0 : win0_2.index t (0 : Fin 2) = (i 0).val / 256 := congrFun ht 0
  have b1 : win0_2.index t (1 : Fin 2) = (i 1).val / 128 := congrFun ht 1
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 128 ≤ (i 1).val ∧ (i 1).val < win0_2.index t (1 : Fin 2) * 128 + 128
    omega

/-- THE RESULT ARRAY after the run is the min-plus product of the argument arrays as launched. -/
theorem final (c : Dev nD) :
    (dats m 0 c).arrAt 2 cfg0.N
      = minPlus (m ((c : Thread nD τ).loc main_arg0) : S1024x512.Idx → Ideal .f32)
          (m ((c : Thread nD τ).loc main_arg1) : S512x512.Idx → Ideal .f32) :=
  (dats m 0 c).arrAt_eq_of_cover 2 _ (fun t _ => flushed_eq m c t) covered

/-- The kernel's run, read: the result array at the min-plus product of the arguments, the arguments unchanged. -/
theorem run : θ_run defs (onTc (τ := τ) (main (F := Ideal))) ⟨m, fun _ => 0, ρ⟩ fun r => ∀ c : Dev nD,
      r.2.mem ((c : Thread nD τ).loc main_v0)
        = minPlus (m ((c : Thread nD τ).loc main_arg0) : S1024x512.Idx → Ideal .f32)
            (m ((c : Thread nD τ).loc main_arg1) : S512x512.Idx → Ideal .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.MinPlus.Kernel

end
-- ==== Proof.lean ====
/- The proof of `Cert.Claim` (proofs.«117689_j70832600646272_2_alg».proof.Defs): a tropical (min-plus) linear layer,
   `out (b, o) = min over i < 512 of X (b, i) + W (o, i)`, over `X : f32[1024, 512]`, `W : f32[512, 512]`.

   The reference broadcasts both arguments to `[1024, 512, 512]`, adds them and reduces the last axis with `minimum` from
   +∞. The kernel runs on a 4 × 4 grid of 256 × 128 output blocks; for a block it takes the output columns in sixteen
   sub-tiles of eight, and for a sub-tile it folds the four 128-lane column chunks of `X (b, ·) + W (o, ·)` with an
   entrywise minimum before ONE minimum along the lanes, from +∞. On the extended reals both are the same number at every
   `(b, o)`: the sum is the same extended-real sum on both sides, and a minimum over 512 indices from a value equals the
   minimum from that value over 128 lanes of the minimum of each lane's four chunk entries, because the two families have
   the same lower bounds (Proof/LibFoldMinCover.lean). Nothing is asked of the entries — no finiteness — and the +∞ word is
   never evaluated: it is the same starting value on both sides.

   The modules: Proof/LibFoldMinCover.lean (the order law), Proof/MinPlusSpec.lean (the product, entry by entry and lane
   by lane), Proof/ReferenceMinPlus.lean (the reference's result is the product), Proof/SubTile.lean (one sub-tile of the
   body), Proof/BlockValue.lean (the output block after the body is the product of the two input blocks),
   Proof/KernelValue.lean (the sixteen blocks are the blocks of the product of the arguments; the kernel's run). Here: the
   three frames (the two kernel programs' are their frame certificates; the reference's is its run with the result
   dropped), `preserves` (the idealization rewrote nothing, so the statement is `True`), and `algebraic` (both runs end
   with the result at the one function `minPlus` of arguments that agree). -/
import proofs.«117689_j70832600646272_2_alg».proof.Defs
import proofs.«117689_j70832600646272_2_alg».proof.Proof.Gen.Kernel
import proofs.«117689_j70832600646272_2_alg».proof.Proof.Gen.Kernel.Skeleton
import proofs.«117689_j70832600646272_2_alg».proof.Proof.Gen.Kernel.Launch
import proofs.«117689_j70832600646272_2_alg».proof.Proof.Gen.Kernel.Points
import proofs.«117689_j70832600646272_2_alg».proof.Proof.Gen.Kernel.Frame
import proofs.«117689_j70832600646272_2_alg».proof.Proof.Gen.KernelIdeal
import proofs.«117689_j70832600646272_2_alg».proof.Proof.Gen.KernelIdeal.Skeleton
import proofs.«117689_j70832600646272_2_alg».proof.Proof.Gen.KernelIdeal.Launch
import proofs.«117689_j70832600646272_2_alg».proof.Proof.Gen.KernelIdeal.Points
import proofs.«117689_j70832600646272_2_alg».proof.Proof.Gen.KernelIdeal.Frame
import proofs.«117689_j70832600646272_2_alg».proof.Proof.Gen.KernelIdeal.Value
import proofs.«117689_j70832600646272_2_alg».proof.Proof.Gen.ReferenceIdeal
import proofs.«117689_j70832600646272_2_alg».proof.Proof.Gen.ReferenceIdeal.Run
import proofs.«117689_j70832600646272_2_alg».proof.Proof.Gen.ReferenceIdeal.Read
import proofs.«117689_j70832600646272_2_alg».proof.Proof.Gen.Pre_finite_inputs
import proofs.«117689_j70832600646272_2_alg».proof.Proof.ReferenceMinPlus
import proofs.«117689_j70832600646272_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel runs and leaves its arguments as launched: its frame certificate. -/
theorem frame_kernel : Cert.frame_Kernel := fun m ρ _ => Cert.Kernel.Gen.frame m ρ

/-- The same for the kernel read on the extended reals. -/
theorem frame_kernelIdeal : Cert.frame_KernelIdeal := fun m ρ _ => Cert.KernelIdeal.Gen.frame m ρ

/-- The reference runs and leaves its arguments as launched: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel: there is nothing to preserve. -/
theorem preserves : Cert.preserves_Kernel_KernelIdeal := trivial

/-- On the extended reals the kernel's result array ends at the min-plus product of its arguments (Proof/KernelValue.lean)
    and the reference's at the min-plus product of its own (Proof/ReferenceMinPlus.lean); the arguments agree. -/
theorem algebraic : Cert.algebraic_KernelIdeal_ReferenceIdeal := by
  intro m ρ m' ρ' _ hagree
  refine ⟨fun c => Cert.MinPlus.minPlus
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.MinPlus.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.MinPlus.Reference.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
